-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : FVec F S256x128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S256x128 .f32 := Host.absf main_arg2
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S128x128 : Shape := ⟨2, ![128, 128]⟩
abbrev S1x128 : Shape := ⟨2, ![1, 128]⟩
abbrev S100000x1 : Shape := ⟨2, ![100000, 1]⟩
abbrev S5000x128 : Shape := ⟨2, ![5000, 128]⟩
abbrev S5000x1 : Shape := ⟨2, ![5000, 1]⟩

abbrev nBuf : Space → Nat
  | .hbm => 60
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S256x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S_, .f32⟩
  | .hbm, ⟨17, _⟩ => ⟨S100000, .f32⟩
  | .hbm, ⟨18, _⟩ => ⟨S1600000x1, .i32⟩
  | .hbm, ⟨19, _⟩ => ⟨S100000, .f32⟩
  | .hbm, ⟨20, _⟩ => ⟨S_, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S1600000, .f32⟩
  | .hbm, ⟨35, _⟩ => ⟨S100000x128, .bf16⟩
  | .hbm, ⟨36, _⟩ => ⟨S_, .i32⟩
  | .hbm, ⟨37, _⟩ => ⟨S1600000, .i32⟩
  | .hbm, ⟨38, _⟩ => ⟨S1600000, .i1⟩
  | .hbm, ⟨39, _⟩ => ⟨S_, .i32⟩
  | .hbm, ⟨40, _⟩ => ⟨S1600000, .i32⟩
  | .hbm, ⟨41, _⟩ => ⟨S1600000, .i32⟩
  | .hbm, ⟨42, _⟩ => ⟨S1600000, .i32⟩
  | .hbm, ⟨43, _⟩ => ⟨S1600000x1, .i32⟩
  | .hbm, ⟨44, _⟩ => ⟨S1600000x128, .bf16⟩
  | .hbm, ⟨45, _⟩ => ⟨S1600000x128, .f32⟩
  | .hbm, ⟨46, _⟩ => ⟨S1600000x1, .f32⟩
  | .hbm, ⟨47, _⟩ => ⟨S1600000x128, .f32⟩
  | .hbm, ⟨48, _⟩ => ⟨S1600000x128, .f32⟩
  | .hbm, ⟨49, _⟩ => ⟨S_, .f32⟩
  | .hbm, ⟨50, _⟩ => ⟨S100000x128, .f32⟩
  | .hbm, ⟨51, _⟩ => ⟨S1600000x1, .i32⟩
  | .hbm, ⟨52, _⟩ => ⟨S100000x128, .f32⟩
  | .hbm, ⟨53, _⟩ => ⟨S128x128, .f32⟩
  | .hbm, ⟨54, _⟩ => ⟨S128x128, .bf16⟩
  | .hbm, ⟨55, _⟩ => ⟨S128x128, .f32⟩
  | .hbm, ⟨56, _⟩ => ⟨S128x128, .bf16⟩
  | .hbm, ⟨57, _⟩ => ⟨S1x128, .f32⟩
  | .hbm, ⟨58, _⟩ => ⟨S100000x1, .f32⟩
  | .hbm, ⟨59, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .bf16⟩
  | .local _ .vmem, ⟨5, _⟩ => ⟨S128x128, .bf16⟩
  | .local _ .vmem, ⟨6, _⟩ => ⟨S1x128, .f32⟩
  | .local _ .vmem, ⟨7, _⟩ => ⟨S5000x1, .f32⟩
  | .local _ .vmem, ⟨8, _⟩ => ⟨S5000x1, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_cst_2 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_3 : Ref sig .tc := ⟨.hbm, 20, rfl⟩
abbrev main_call1_v0 : Ref sig .tc := ⟨.hbm, 21, rfl⟩
abbrev main_call1_v1 : Ref sig .tc := ⟨.hbm, 22, rfl⟩
abbrev main_v8 : Ref sig .tc := ⟨.hbm, 23, rfl⟩
abbrev main_v9 : Ref sig .tc := ⟨.hbm, 24, rfl⟩
abbrev main_c : Ref sig .tc := ⟨.hbm, 25, rfl⟩
abbrev main_v10 : Ref sig .tc := ⟨.hbm, 26, rfl⟩
abbrev main_v11 : Ref sig .tc := ⟨.hbm, 27, rfl⟩
abbrev main_c_4 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c_5 : Ref sig .tc := ⟨.hbm, 36, rfl⟩
abbrev main_v19 : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_cst_7 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bitsLt_bf16_f32 : FTy.bits .bf16 < FTy.bits .f32
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S256x128_S128x128_0_0 : S256x128.Slices ![0, 0] S128x128
  slices_S256x128_S128x128_128_0 : S256x128.Slices ![128, 0] S128x128
  shapeCasts_S128_S1x128 : S128.ShapeCasts S1x128
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x1.size a ≤ S100000x1.size a
  hwx0_5 : ∀ i : grid0.Coords, EltTy.bits .f32 = 32 ∨ (Rect.block (s := S100000x1) S5000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v32) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v37) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S5000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v39) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S256x128 : Shape := ⟨2, ![256, 128]⟩
abbrev S128 : Shape := ⟨1, ![128]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S100000x256 : Shape := ⟨2, ![100000, 256]⟩
abbrev S1x128 : Shape := ⟨2, ![1, 128]⟩

abbrev nBuf : Space → Nat
  | .hbm => 53
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S256x128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S1600000, .f32⟩
  | .hbm, ⟨8, _⟩ => ⟨S_, .f32⟩
  | .hbm, ⟨9, _⟩ => ⟨S100000, .f32⟩
  | .hbm, ⟨10, _⟩ => ⟨S1600000x1, .i32⟩
  | .hbm, ⟨11, _⟩ => ⟨S100000, .f32⟩
  | .hbm, ⟨12, _⟩ => ⟨S_, .f32⟩
  | .hbm, ⟨13, _⟩ => ⟨S_, .f32⟩
  | .hbm, ⟨14, _⟩ => ⟨S100000, .f32⟩
  | .hbm, ⟨15, _⟩ => ⟨S100000, .f32⟩
  | .hbm, ⟨16, _⟩ => ⟨S100000, .f32⟩
  | .hbm, ⟨17, _⟩ => ⟨S100000x1, .f32⟩
  | .hbm, ⟨18, _⟩ => ⟨S100000x128, .f32⟩
  | .hbm, ⟨19, _⟩ => ⟨S100000x128, .f32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S1600000x1, .f32⟩
  | .hbm, ⟨30, _⟩ => ⟨S1600000x128, .f32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x256, .f32⟩
  | .hbm, ⟨37, _⟩ => ⟨S100000x128, .f32⟩
  | .hbm, ⟨38, _⟩ => ⟨S_, .f32⟩
  | .hbm, ⟨39, _⟩ => ⟨S100000, .f32⟩
  | .hbm, ⟨40, _⟩ => ⟨S1600000x1, .i32⟩
  | .hbm, ⟨41, _⟩ => ⟨S100000, .f32⟩
  | .hbm, ⟨42, _⟩ => ⟨S_, .f32⟩
  | .hbm, ⟨43, _⟩ => ⟨S_, .f32⟩
  | .hbm, ⟨44, _⟩ => ⟨S100000, .f32⟩
  | .hbm, ⟨45, _⟩ => ⟨S100000, .f32⟩
  | .hbm, ⟨46, _⟩ => ⟨S100000, .f32⟩
  | .hbm, ⟨47, _⟩ => ⟨S100000x1, .f32⟩
  | .hbm, ⟨48, _⟩ => ⟨S100000x128, .f32⟩
  | .hbm, ⟨49, _⟩ => ⟨S100000x128, .f32⟩
  | .hbm, ⟨50, _⟩ => ⟨S1x128, .f32⟩
  | .hbm, ⟨51, _⟩ => ⟨S100000x128, .f32⟩
  | .hbm, ⟨52, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_c : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  concatenates_S100000x128_S100000x128_S100000x256_d1 : Shape.Concatenates [S100000x128, S100000x128] S100000x256 1
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x256_S256x128_S100000x128_1_0_0_1_n_n_wf : DotDims.WF S100000x256 S256x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf

class Facts : Prop extends Facts₀ where

variable [Facts]
-- ==== Proof.HostSide.lean ====
/-
  What the host computes before the kernel is launched, as functions of the program's arguments.

  From the edge list (`src`, `dst`), the edge weights `affine` and the node features `feat`:
  `count ix` is, per node, the number of edges whose `ix` end is that node (a scatter-add of ones) and `degree ix` that count
  floored at one;
  `rows src` are the source ends as gather start indices, a negative one moved up by the node count first;
  `messages` is, per edge `e` and feature `d`, `feat (src e, d) · (affine e · rsqrt (degree src) (src e))`;
  `aggregated` adds each edge's message into its destination node's row (a scatter-add into zeros).
  The kernel's six operands are `feat`, `aggregated`, the two `[128, 128]` halves of the weight, the bias as a row and
  `degree dst` as a column; each is what the region finds in its operand's array.
-/
import proofs.«149839_j79388175499439_2_alg».proof.Proof.Gen.KernelIdeal.Frame
import Idealize.ShloMosaic.Lib.StableHlo.Run
import Idealize.ShloMosaic.PureOps.Ideal

noncomputable section

namespace Cert.KernelIdeal.HostSide

open Cert.KernelIdeal Cert.KernelIdeal.Gen Idealize.ShloMosaic Idealize.ShloMosaic.TcCoe Idealize.SL.Sem
open Idealize.ShloMosaic.StableHlo

variable {F : FTy → Type} [FloatOps F]

/-- Per node, the number of edges whose `ix` end it is: ones scattered and added. -/
def count (ix : IVec S1600000 32) : FVec F S100000 .f32 :=
  Host.scatterAdd scatter_S100000_S1600000x1_S1600000_n_0_0_1
    (broadcastInDim S100000 ![] bcast_S_S100000 (constant S_ .f32 0x00000000#32))
    (broadcastInDim S1600000x1 ![0] bcast_S1600000_S1600000x1_0 ix)
    (broadcastInDim S1600000 ![] bcast_S_S1600000 (constant S_ .f32 0x3F800000#32))

/-- That count floored at one. -/
def degree (ix : IVec S1600000 32) : FVec F S100000 .f32 :=
  maximumf (broadcastInDim S100000 ![] bcast_S_S100000 (constant S_ .f32 0x3F800000#32)) (count ix)

/-- The source ends as a column of gather start indices: a negative index has the node count added first. -/
def rows (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- Per edge, its weight times the inverse root of its source node's out-degree. -/
def edgeScale (affine : FVec F S1600000 .f32) (src : IVec S1600000 32) : FVec F S1600000 .f32 :=
  mulf affine (Host.gather gather_S100000_S1600000x1_S1600000_n_0_n_n_0_1_1 (Host.rsqrt (degree src)) (rows src))

/-- Per edge and feature, the source node's feature times the edge's scale. -/
def messages (feat : FVec F S100000x128 .f32) (affine : FVec F S1600000 .f32) (src : IVec S1600000 32) :
    FVec F S1600000x128 .f32 :=
  mulf (extf .f32 (Host.gather gather_S100000x128_S1600000x1_S1600000x128_1_0_n_n_0_1_1128
      (truncf .bf16 feat bitsLt_bf16_f32) (rows src)) bitsLt_bf16_f32)
    (broadcastInDim S1600000x128 ![0, 1] bcast_S1600000x1_S1600000x128_0_1
      (broadcastInDim S1600000x1 ![0] bcast_S1600000_S1600000x1_0 (edgeScale affine src)))

/-- Each edge's message added into its destination node's row. -/
def aggregated (feat : FVec F S100000x128 .f32) (affine : FVec F S1600000 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 dst)
    (messages feat affine src)

/-- The weight's first 128 rows. -/
def upperHalf (w : FVec F S256x128 .f32) : FVec F S128x128 .bf16 :=
  truncf .bf16 (extractStridedSlice S128x128 ![0, 0] w slices_S256x128_S128x128_0_0) bitsLt_bf16_f32

/-- The weight's last 128 rows. -/
def lowerHalf (w : FVec F S256x128 .f32) : FVec F S128x128 .bf16 :=
  truncf .bf16 (extractStridedSlice S128x128 ![128, 0] w slices_S256x128_S128x128_128_0) bitsLt_bf16_f32

/-- The bias as a `[1, 128]` row. -/
def biasRow (b : FVec F S128 .f32) : FVec F S1x128 .f32 := shapeCast S1x128 b shapeCasts_S128_S1x128

/-- The in-degree as a `[100000, 1]` column. -/
def degreeColumn (dst : IVec S1600000 32) : FVec F S100000x1 .f32 :=
  shapeCast S100000x1 (degree dst) shapeCasts_S100000_S100000x1

variable (m : (ℓ : Loc nD τ sig) → Buf (Elt F) ℓ)

set_option maxHeartbeats 400000 in
/-- The region finds the aggregated messages in its second operand's array. -/
theorem found_messages (c : Dev nD) :
    (V m c main_v32 : S100000x128.Idx → F .f32)
      = aggregated (m ((c : Thread nD τ).loc main_arg0)) (m ((c : Thread nD τ).loc main_arg1))
          (m ((c : Thread nD τ).loc main_arg4)) (m ((c : Thread nD τ).loc main_arg5)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 400000 in
theorem found_upper (c : Dev nD) :
    (V m c main_v34 : S128x128.Idx → F .bf16) = upperHalf (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 400000 in
theorem found_lower (c : Dev nD) :
    (V m c main_v36 : S128x128.Idx → F .bf16) = lowerHalf (m ((c : Thread nD τ).loc main_arg2)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 400000 in
theorem found_bias (c : Dev nD) :
    (V m c main_v37 : S1x128.Idx → F .f32) = biasRow (m ((c : Thread nD τ).loc main_arg3)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

set_option maxHeartbeats 400000 in
theorem found_degree (c : Dev nD) :
    (V m c main_v38 : S100000x1.Idx → F .f32) = degreeColumn (m ((c : Thread nD τ).loc main_arg5)) := by
  dsimp only [Gen.V]
  simp only [Gen.hostOps0, Gen.hostOps0_1, Gen.hostOps0_2, Gen.hostOps0_3, Gen.hostOps0_4, List.flatten_cons, List.flatten_nil, List.append_nil, List.cons_append, List.nil_append]
  after_results_simp
  rfl

end Cert.KernelIdeal.HostSide

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.BodyAt.lean ====
/-
  The kernel body's stored value, read at one entry of the block.

  A grid point loads a `[5000, 128]` block of the node features `x`, the same rows of the aggregated messages `a`, the two
  `[128, 128]` halves `u`, `v` of the weight, the bias row `b : [1, 128]` and the in-degree column `g : [5000, 1]`, and stores

      (x · u + a · v) · rsqrt (max g 1) + b

  with both products accumulated from zero. On the extended reals a change of float format is the identity, so entry
  `(p, c)` of the stored block is

      (∑ k, x (p, k) · u (k, c) + ∑ k, a (p, k) · v (k, c)) · rsqrt (max (g (p, 0)) 1) + b (0, c).
-/
import proofs.«149839_j79388175499439_2_alg».proof.Proof.Gen.KernelIdeal.Skeleton
import proofs.«149839_j79388175499439_2_alg».proof.Proof.LibPlainDot
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-- The in-degree column spread along the 128 lanes: entry `(p, c)` is the column's entry `(p, 0)`. -/
theorem column_spread_apply (g : S5000x1.Idx → EReal) (p : Fin 5000) (c : Fin 128) :
    broadcastTo S5000x128 g broadcasts_S5000x1_S5000x128 (ix2 p c) = g (ix2 p (0 : Fin 1)) :=
  broadcastTo_apply g _ (ix2 p c) (ix2 p (0 : Fin 1)) (fun a => by
    match a with
    | ⟨0, _⟩ => show p.val = if (5000 : Nat) = 1 then 0 else p.val; rw [if_neg (by decide)]
    | ⟨1, _⟩ => show 0 = if (1 : Nat) = 1 then 0 else c.val; rw [if_pos rfl])

/-- The bias row spread down the 5000 rows: entry `(p, c)` is the row's entry `(0, c)`. -/
theorem row_spread_apply (b : S1x128.Idx → EReal) (p : Fin 5000) (c : Fin 128) :
    broadcastTo S5000x128 b broadcasts_S1x128_S5000x128 (ix2 p c) = b (ix2 (0 : Fin 1) c) :=
  broadcastTo_apply b _ (ix2 p c) (ix2 (0 : Fin 1) c) (fun a => by
    match a with
    | ⟨0, _⟩ => show 0 = if (1 : Nat) = 1 then 0 else p.val; rw [if_pos rfl]
    | ⟨1, _⟩ => show c.val = if (128 : Nat) = 1 then 0 else c.val; rw [if_neg (by decide)])

/-- The body's two products: a `[5000, 128]` block times a `[128, 128]` matrix from a zero accumulator, at `(p, c)`, is the
    sum over the 128 contracted positions. -/
theorem product_apply {φ₁ φ₂ : FTy} (l : FVec Ideal S5000x128 φ₁) (r : FVec Ideal S128x128 φ₂) (p : Fin 5000) (c : Fin 128) :
    FloatOps.matmul dot_S5000x128_S128x128_S5000x128_1_0_0_1_n_n none l r (constant (F := Ideal) S5000x128 .f32 0x00000000#32) (ix2 p c)
      = ∑ k : Fin 128, l (ix2 p k) * r (ix2 k c) :=
  Cert.Lib.PlainDot.matmul_zero_ix2 dot_S5000x128_S128x128_S5000x128_1_0_0_1_n_n rfl rfl
    (fun i q => by
      unfold DotDims.lhsIdx
      rw [dif_neg (show ¬(0 : Fin S5000x128.rank) ∈ dot_S5000x128_S128x128_S5000x128_1_0_0_1_n_n.lhsBatch by decide),
        dif_pos (show (0 : Fin S5000x128.rank) ∈ dot_S5000x128_S128x128_S5000x128_1_0_0_1_n_n.lhsNonContracting by decide)]
      rfl)
    (fun i q => dot_S5000x128_S128x128_S5000x128_1_0_0_1_n_n.lhsIdx_val_of_single rfl i q)
    (fun i q => dot_S5000x128_S128x128_S5000x128_1_0_0_1_n_n.rhsIdx_val_of_single rfl i q)
    (fun i q => by
      unfold DotDims.rhsIdx
      rw [dif_neg (show ¬(1 : Fin S128x128.rank) ∈ dot_S5000x128_S128x128_S5000x128_1_0_0_1_n_n.rhsBatch by decide),
        dif_pos (show (1 : Fin S128x128.rank) ∈ dot_S5000x128_S128x128_S5000x128_1_0_0_1_n_n.rhsNonContracting by decide)]
      rfl)
    none l r p c

/-- THE STORED BLOCK AT `(p, c)`. -/
theorem stored_apply (x a : Vec Ideal S5000x128 .f32) (u v : Vec Ideal S128x128 .bf16) (g : Vec Ideal S5000x1 .f32)
    (b : Vec Ideal S1x128 .f32) (p : Fin 5000) (c : Fin 128) :
    k0_pay1 x a u v g b (ix2 p c)
      = ((∑ k : Fin 128, x (ix2 p k) * u (ix2 k c)) + ∑ k : Fin 128, a (ix2 p k) * v (ix2 k c))
          * Ideal.rsqrt (max (g (ix2 p (0 : Fin 1))) (Ideal.ofBits .f32 0x3F800000#32)) + b (ix2 (0 : Fin 1) c) := by
  unfold k0_pay1
  simp only [shapeCast_self]
  show (FloatOps.matmul dot_S5000x128_S128x128_S5000x128_1_0_0_1_n_n none (truncf .bf16 x bitsLt_bf16_f32) u
          (constant (F := Ideal) S5000x128 .f32 0x00000000#32) (ix2 p c)
        + FloatOps.matmul dot_S5000x128_S128x128_S5000x128_1_0_0_1_n_n none (truncf .bf16 a bitsLt_bf16_f32) v
          (constant (F := Ideal) S5000x128 .f32 0x00000000#32) (ix2 p c))
      * broadcastTo S5000x128 (rsqrt (maximumf g (broadcast S5000x1 (Scalar.ofBits (F := Ideal) .f32 0x3F800000#32))))
          broadcasts_S5000x1_S5000x128 (ix2 p c)
      + broadcastTo S5000x128 b broadcasts_S1x128_S5000x128 (ix2 p c) = _
  rw [column_spread_apply, row_spread_apply, product_apply, product_apply]
  rfl

end Cert.KernelIdeal.Body

end
-- ==== Proof.KernelWhole.lean ====
/-
  From the blocks to the whole result array.

  The grid has 20 points; point `t` reads rows `5000·t … 5000·t + 4999` of the node features, of the aggregated messages
  and of the in-degree column, the whole of both weight halves and of the bias row, and writes back the same rows of the
  result. Entry `(p, c)` of what it writes is the body's stored value there, a function of row `5000·t + p` of the row-blocked
  arrays alone; so the blocks are the restrictions of ONE function `layer` of the whole arrays, and since the 20 row
  blocks cover every row the result array ends holding `layer`:

      layer (n, c) = (∑ k, X (n, k) · U (k, c) + ∑ k, A (n, k) · W (k, c)) · rsqrt (max (G (n, 0)) 1) + B (0, c).
-/
import proofs.«149839_j79388175499439_2_alg».proof.Proof.Gen.KernelIdeal.Value
import proofs.«149839_j79388175499439_2_alg».proof.Proof.BodyAt
import Idealize.ShloMosaic.Lib.Pipeline.Value
import Idealize.ShloMosaic.Lib.ValueIdx

noncomputable section

namespace Cert.KernelIdeal.Whole

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The layer's output at node `n` and output feature `c`, from whole arrays: node features `X`, aggregated messages `A`,
    the weight's halves `U`, `W`, the bias row `B`, the in-degree column `G`. -/
def layerAt (X A : S100000x128.Idx → EReal) (U W : S128x128.Idx → EReal) (B : S1x128.Idx → EReal)
    (G : S100000x1.Idx → EReal) (n : Fin 100000) (c : Fin 128) : EReal :=
  ((∑ k : Fin 128, X (ix2 n k) * U (ix2 k c)) + ∑ k : Fin 128, A (ix2 n k) * W (ix2 k c))
    * Ideal.rsqrt (max (G (ix2 n (0 : Fin 1))) (Ideal.ofBits .f32 0x3F800000#32)) + B (ix2 (0 : Fin 1) c)

/-- The whole result array. -/
def layer (X A : S100000x128.Idx → EReal) (U W : S128x128.Idx → EReal) (B : S1x128.Idx → EReal)
    (G : S100000x1.Idx → EReal) : S100000x128.Idx → EReal :=
  fun i => layerAt X A U W B G (i 0) (i 1)

/-- `layer` at the entry with coordinates `(n, c)`. -/
theorem layer_at (X A : S100000x128.Idx → EReal) (U W : S128x128.Idx → EReal) (B : S1x128.Idx → EReal)
    (G : S100000x1.Idx → EReal) (n : Fin 100000) (c : Fin 128) :
    layer X A U W B G (ix2 n c) = layerAt X A U W B G n c := rfl

theorem zero_offsets : (![0, 0] : Fin 2 → Nat) = fun _ => 0 := funext fun a => by fin_cases a <;> rfl

/-- Where each window's block sits at point `t`: the row-blocked windows (features, messages, in-degree, result) at block row
    `t`, the weight halves and the bias at their one block. Decided over the 20 points. -/
theorem block_positions : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 20 := lt_of_lt_of_eq t.isLt (show cfg0.N = 20 from N_0)

/-- Row `p` of point `t`'s block is row `5000·t + p` of the array. -/
def rowAt (t : Fin cfg0.N) (p : Fin 5000) : Fin 100000 := ⟨5000 * t.val + p.val, by have := point_lt t; omega⟩

/-! ## Each window's block of an array, read at an entry, is the array read at the entry's place in it

Stated for ANY contents `X` of the window's array: only the window's position matters. -/

/-- Rows of the node features: entry `(p, k)` of point `t`'s block is entry `(5000·t + p, k)` of the array. -/
theorem read_features (X : S100000x128.Idx → EReal) (t : Fin cfg0.N) (p : Fin 5000) (k : Fin 128) :
    (((cfg0.win 0).blk t).view.read (Elt Ideal) X : S5000x128.Idx → EReal) (ix2 p k) = X (ix2 (rowAt t p) k) := by
  obtain ⟨e0, e1, -⟩ := block_positions t
  rw [View.read_apply]
  show X (((cfg0.win 0).blk t).view.emb (ix2 p k)) = _
  refine congrArg X (funext fun a => Fin.ext ?_)
  match a with
  | ⟨0, _⟩ => show win0_0.index t (0 : Fin 2) * 5000 + 1 * p.val = 5000 * t.val + p.val; omega
  | ⟨1, _⟩ => show win0_0.index t (1 : Fin 2) * 128 + 1 * k.val = k.val; omega

/-- The same rows of the aggregated messages. -/
theorem read_messages (X : S100000x128.Idx → EReal) (t : Fin cfg0.N) (p : Fin 5000) (k : Fin 128) :
    (((cfg0.win 1).blk t).view.read (Elt Ideal) X : S5000x128.Idx → EReal) (ix2 p k) = X (ix2 (rowAt t p) k) := by
  obtain ⟨-, -, e0, e1, -⟩ := block_positions t
  rw [View.read_apply]
  show X (((cfg0.win 1).blk t).view.emb (ix2 p k)) = _
  refine congrArg X (funext fun a => Fin.ext ?_)
  match a with
  | ⟨0, _⟩ => show win0_1.index t (0 : Fin 2) * 5000 + 1 * p.val = 5000 * t.val + p.val; omega
  | ⟨1, _⟩ => show win0_1.index t (1 : Fin 2) * 128 + 1 * k.val = k.val; omega

/-- The weight's upper half is read whole at every point. -/
theorem read_upper (X : S128x128.Idx → EReal) (t : Fin cfg0.N) (k q : Fin 128) :
    (((cfg0.win 2).blk t).view.read (Elt Ideal) X : S128x128.Idx → EReal) (ix2 k q) = X (ix2 k q) := by
  obtain ⟨-, -, -, -, e0, e1, -⟩ := block_positions t
  rw [View.read_apply]
  show X (((cfg0.win 2).blk t).view.emb (ix2 k q)) = _
  refine congrArg X (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- So is its lower half. -/
theorem read_lower (X : S128x128.Idx → EReal) (t : Fin cfg0.N) (k q : Fin 128) :
    (((cfg0.win 3).blk t).view.read (Elt Ideal) X : S128x128.Idx → EReal) (ix2 k q) = X (ix2 k q) := by
  obtain ⟨-, -, -, -, -, -, e0, e1, -⟩ := block_positions t
  rw [View.read_apply]
  show X (((cfg0.win 3).blk t).view.emb (ix2 k q)) = _
  refine congrArg X (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- So is the bias row. -/
theorem read_bias (X : S1x128.Idx → EReal) (t : Fin cfg0.N) (q : Fin 128) :
    (((cfg0.win 4).blk t).view.read (Elt Ideal) X : S1x128.Idx → EReal) (ix2 (0 : Fin 1) q) = X (ix2 (0 : Fin 1) q) := by
  obtain ⟨-, -, -, -, -, -, -, -, e0, e1, -⟩ := block_positions t
  rw [View.read_apply]
  show X (((cfg0.win 4).blk t).view.emb (ix2 (0 : Fin 1) q)) = _
  refine congrArg X (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- Rows of the in-degree column. -/
theorem read_degree (X : S100000x1.Idx → EReal) (t : Fin cfg0.N) (p : Fin 5000) :
    (((cfg0.win 5).blk t).view.read (Elt Ideal) X : S5000x1.Idx → EReal) (ix2 p (0 : Fin 1)) = X (ix2 (rowAt t p) (0 : Fin 1)) := by
  obtain ⟨-, -, -, -, -, -, -, -, -, -, e0, e1, -⟩ := block_positions t
  rw [View.read_apply]
  show X (((cfg0.win 5).blk t).view.emb (ix2 p (0 : Fin 1))) = _
  refine congrArg X (funext fun a => Fin.ext ?_)
  match a with
  | ⟨0, _⟩ => show win0_5.index t (0 : Fin 2) * 5000 + 1 * p.val = 5000 * t.val + p.val; omega
  | ⟨1, _⟩ => show win0_5.index t (1 : Fin 2) * 1 + 1 * 0 = 0; omega

/-- Entry `(p, q)` of the result's block at point `t` is entry `(5000·t + p, q)` of the result array. -/
theorem place_result (t : Fin cfg0.N) (p : Fin 5000) (q : Fin 128) :
    ((cfg0.win 6).blk t).view.emb (ix2 p q) = (ix2 (rowAt t p) q : S100000x128.Idx) := by
  obtain ⟨-, -, -, -, -, -, -, -, -, -, -, -, e0, e1⟩ := block_positions t
  refine funext fun a => Fin.ext ?_
  match a with
  | ⟨0, _⟩ => show win0_6.index t (0 : Fin 2) * 5000 + 1 * p.val = 5000 * t.val + p.val; omega
  | ⟨1, _⟩ => show win0_6.index t (1 : Fin 2) * 128 + 1 * q.val = q.val; omega

/-! ## What point `t` writes back is block `t` of `layer` -/

/-- The body's stored block, computed from the blocks at point `t` of ANY six arrays, is block `t` of `layer` of the arrays. -/
theorem stored_block (X A : S100000x128.Idx → EReal) (U W : S128x128.Idx → EReal) (B : S1x128.Idx → EReal)
    (G : S100000x1.Idx → EReal) (t : Fin cfg0.N) (j : S5000x128.Idx) :
    k0_pay1 (((cfg0.win 0).blk t).view.read (Elt Ideal) X) (((cfg0.win 1).blk t).view.read (Elt Ideal) A)
        (((cfg0.win 2).blk t).view.read (Elt Ideal) U) (((cfg0.win 3).blk t).view.read (Elt Ideal) W)
        (((cfg0.win 5).blk t).view.read (Elt Ideal) G) (((cfg0.win 4).blk t).view.read (Elt Ideal) B) j
      = layer X A U W B G (((cfg0.win 6).blk t).view.emb j) := by
  obtain ⟨p, q, rfl⟩ : ∃ (p : Fin 5000) (q : Fin 128), j = ix2 p q := ⟨j 0, j 1, eq_ix2 j⟩
  rw [place_result]
  refine (Cert.KernelIdeal.Body.stored_apply _ _ _ _ _ _ p q).trans ?_
  have hx : ∀ k : Fin 128, View.read (Elt Ideal) ((cfg0.win 0).blk t).view X (ix2 p k) = X (ix2 (rowAt t p) k) :=
    fun k => read_features X t p k
  have ha : ∀ k : Fin 128, View.read (Elt Ideal) ((cfg0.win 1).blk t).view A (ix2 p k) = A (ix2 (rowAt t p) k) :=
    fun k => read_messages A t p k
  have hu : ∀ k : Fin 128, View.read (Elt Ideal) ((cfg0.win 2).blk t).view U (ix2 k q) = U (ix2 k q) :=
    fun k => read_upper U t k q
  have hw : ∀ k : Fin 128, View.read (Elt Ideal) ((cfg0.win 3).blk t).view W (ix2 k q) = W (ix2 k q) :=
    fun k => read_lower W t k q
  have hb : View.read (Elt Ideal) ((cfg0.win 4).blk t).view B (ix2 (0 : Fin 1) q) = B (ix2 (0 : Fin 1) q) :=
    read_bias B t q
  have hg : View.read (Elt Ideal) ((cfg0.win 5).blk t).view G (ix2 p (0 : Fin 1)) = G (ix2 (rowAt t p) (0 : Fin 1)) :=
    read_degree G t p
  simp only [hx, ha, hu, hw, hb, hg]
  rw [layer_at]
  unfold layerAt
  rfl

theorem written_eq (c : Dev nD) (t : Fin cfg0.N) :
    (dats m 0 c).flushed 6 t = ((cfg0.win 6).blk t).view.read (Elt Ideal)
      (layer (V m c main_arg0) (V m c main_v32) (V m c main_v34) (V m c main_v36) (V m c main_v37) (V m c main_v38)) := by
  rw [Cert.KernelIdeal.Value.flushed6]
  unfold out0_6
  rw [View.canon_unit_zero zero_offsets]
  simp only [View.ld_unit_zero (S := S5000x128) zero_offsets, View.ld_unit_zero (S := S128x128) zero_offsets,
    View.ld_unit_zero (S := S5000x1) zero_offsets, View.ld_unit_zero (S := S1x128) zero_offsets]
  unfold iblk
  funext j
  exact stored_block (V m c main_arg0) (V m c main_v32) (V m c main_v34) (V m c main_v36) (V m c main_v37) (V m c main_v38) t j

/-! ## The row blocks cover the array -/

theorem mem_block (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v39).slice (win0_6.rect t)).set ↔ _
  rw [View.set_slice_whole, Rect.mem_set_unit]
  exact Iff.rfl

/-- Row `r` lies in the block of point `r / 5000`. -/
theorem covered (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, -, -, e0, e1⟩ := block_positions t
  refine ⟨t, flush0_6 t, ?_⟩
  rw [mem_block]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-- THE RESULT ARRAY after the run is `layer` of the arrays the region finds. -/
theorem result_array (c : Dev nD) :
    (dats m 0 c).arrAt 6 cfg0.N
      = layer (V m c main_arg0) (V m c main_v32) (V m c main_v34) (V m c main_v36) (V m c main_v37) (V m c main_v38) :=
  (dats m 0 c).arrAt_eq_of_cover 6 _ (fun t _ => written_eq m c t) covered

end Cert.KernelIdeal.Whole

end
-- ==== Proof.LibSplitSum.lean ====
/-
  A finite sum cut in two, and a vector read as a one-column matrix.

  `sum_fin_split`: in any commutative additive monoid, a sum over `Fin N` with `N = a + b` is the sum of the first `a`
  terms plus the sum of the last `b` terms, the positions written `⟨k, _⟩` and `⟨a + k, _⟩`.
  `shapeCast_a_a1_apply`: an `[a]` array cast to the column `[a, 1]` reads, at `(i, u)`, the operand at `i`.
-/
import Idealize.ShloMosaic.Lib.Pipeline.Value
import Idealize.ShloMosaic.Lib.ValueIdx

namespace Cert.Lib.SplitSum

open Idealize.ShloMosaic Idealize.ShloMosaic.ValueIdx

/-- A sum over `Fin N`, `N = a + b`, is the first `a` terms plus the last `b`. -/
theorem sum_fin_split {M : Type*} [AddCommMonoid M] {N : ℕ} (a b : ℕ) (h : a + b = N) (f : Fin N → M) :
    ∑ k, f k = (∑ k : Fin a, f ⟨k.val, by omega⟩) + ∑ k : Fin b, f ⟨a + k.val, by omega⟩ := by
  subst h
  rw [Fin.sum_univ_add]
  rfl

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Lib.SplitSum
-- ==== Proof.RefAt.lean ====
/-
  The reference's result, read at one entry.

  The reference joins the node features and the aggregated messages side by side into a `[100000, 256]` matrix,
  multiplies it with the whole `[256, 128]` weight, scales row `n` by the inverse root of node `n`'s in-degree (floored at
  one) and adds the bias. A sum over the 256 joined columns is the sum over the first 128, which read the features, plus
  the sum over the last 128, which read the messages; so entry `(n, c)` is

      (∑ k<128, feat (n, k) · w (k, c) + ∑ k<128, agg (n, k) · w (128 + k, c)) · rsqrt (max 1 (count n)) + bias c.
-/
import proofs.«149839_j79388175499439_2_alg».proof.Proof.Gen.ReferenceIdeal.Read
import proofs.«149839_j79388175499439_2_alg».proof.Proof.LibSplitSum
import Idealize.ShloMosaic.Lib.Pipeline.Value
import Idealize.ShloMosaic.Lib.ValueIdx

noncomputable section

namespace Cert.ReferenceIdeal.RefValue

open Cert.ReferenceIdeal Cert.ReferenceIdeal.Gen Cert.ReferenceIdeal.Read Idealize.ShloMosaic Idealize.ShloMosaic.ValueIdx

/-- One of the first 128 columns of the joined matrix reads the left piece. -/
theorem joined_left (x₁ x₂ : S100000x128.Idx → EReal) (n : Fin 100000) (k : Fin 128) :
    concatenate S100000x256 1 [⟨S100000x128, x₁⟩, ⟨S100000x128, x₂⟩] concatenates_S100000x128_S100000x128_S100000x256_d1
      (ix2 n (⟨k.val, by omega⟩ : Fin 256)) = x₁ (ix2 n k) :=
  concatenate_pair_apply_left (t := S100000x256) (s₁ := S100000x128) (s₂ := S100000x128) 1 x₁ x₂
    concatenates_S100000x128_S100000x128_S100000x256_d1 (ix2 n (⟨k.val, by omega⟩ : Fin 256)) rfl (ix2 n k) (fun b => by
    match b with
    | ⟨0, _⟩ => rfl
    | ⟨1, _⟩ => rfl)

/-- One of the last 128 columns of the joined matrix reads the right piece, 128 columns back. -/
theorem joined_right (x₁ x₂ : S100000x128.Idx → EReal) (n : Fin 100000) (k : Fin 128) :
    concatenate S100000x256 1 [⟨S100000x128, x₁⟩, ⟨S100000x128, x₂⟩] concatenates_S100000x128_S100000x128_S100000x256_d1
      (ix2 n (⟨128 + k.val, by omega⟩ : Fin 256)) = x₂ (ix2 n k) :=
  concatenate_pair_apply_right (t := S100000x256) (s₁ := S100000x128) (s₂ := S100000x128) 1 x₁ x₂
    concatenates_S100000x128_S100000x128_S100000x256_d1 (ix2 n (⟨128 + k.val, by omega⟩ : Fin 256)) rfl rfl (ix2 n k)
    (fun b hb => by
      match b with
      | ⟨0, _⟩ => rfl
      | ⟨1, _⟩ => exact absurd rfl hb)
    (by show k.val + 128 = 128 + k.val; omega)

/-- THE REFERENCE'S RESULT AT `(n, c)`. -/
theorem result_apply (x0 : S100000x128.Idx → EReal) (x1 : S1600000.Idx → EReal) (x2 : S256x128.Idx → EReal)
    (x3 : S128.Idx → EReal) (x4 x5 : IVec S1600000 32) (n : Fin 100000) (c : Fin 128) :
    val_main_v34 (F := Ideal) x0 x1 x2 x3 x4 x5 (ix2 n c)
      = ((∑ k : Fin 128, x0 (ix2 n k) * x2 (ix2 (⟨k.val, by omega⟩ : Fin 256) c))
          + ∑ k : Fin 128, val_main_v21 (F := Ideal) x0 x1 x4 x5 (ix2 n k) * x2 (ix2 (⟨128 + k.val, by omega⟩ : Fin 256) c))
        * Ideal.rsqrt (max (Ideal.ofBits .f32 0x3F800000#32) (val_main_v26 (F := Ideal) x5 (ix1 n))) + x3 (ix1 c) := by
  have e1 : idx_main_v29 (idx_main_v30 (ix2 n c)) = ix1 n := funext fun a => Fin.ext (by
    match a with
    | ⟨0, _⟩ => rfl)
  have e2 : idx_main_v32 (idx_main_v33 (ix2 n c)) = ix1 c := funext fun a => Fin.ext (by
    match a with
    | ⟨0, _⟩ => rfl)
  have el : ∀ k : Fin 256, lidx_main_v23 (ix2 n c) k = ix2 n k := fun k => funext fun a => Fin.ext (by
    match a with
    | ⟨0, _⟩ => rfl
    | ⟨1, _⟩ => rfl)
  have er : ∀ k : Fin 256, ridx_main_v23 (ix2 n c) k = ix2 k c := fun k => funext fun a => Fin.ext (by
    match a with
    | ⟨0, _⟩ => rfl
    | ⟨1, _⟩ => rfl)
  rw [val_main_v34_apply, val_main_v31_apply, val_main_v33_apply, val_main_v32_apply, val_main_v30_apply,
    val_main_v29_apply, val_main_v28_apply, val_main_v27_apply, val_main_call1_v1_apply, val_main_call1_v0_apply,
    val_main_cst_5_apply, val_main_v23_apply]
  simp only [e1, e2, el, er, Ideal.addf_def, Ideal.mulf_def, Ideal.hostUnary_rsqrt_def, Ideal.maximumf_def, Ideal.ofBits_def]
  rw [Cert.Lib.SplitSum.sum_fin_split 128 128 rfl]
  unfold val_main_v22
  simp only [joined_left, joined_right]

end Cert.ReferenceIdeal.RefValue

end
-- ==== Proof.LibGatherRows.lean ====
/-
  A gather of whole rows, and of single entries, by one start index per row of the index array, read at an index.

  `x[idx]` for a matrix `x : [N, D]` and an integer vector `idx : [E]` lowers to a gather whose start indices are the
  column `[E, 1]`: offset axis `1`, collapsed axis `0`, start index map `[0]`, index vector axis `1`, slice sizes
  `[1, D]`. Its element `(e, d)` is `x (r, d)` where `r` is the start index `idx (e, 0)` read as a signed integer and
  clamped into `[0, N − 1]`. The same with a vector `x : [N]` (no offset axis, slice sizes `[1]`): element `e` is `x r`
  for the SAME `r`. So two such gathers by one index array pick the same row, whatever the operands are.
-/
import Idealize.ShloMosaic.PureOps.ShapeOps
import Idealize.ShloMosaic.Lib.ValueIdx

namespace Cert.Lib.GatherRows

open Idealize.ShloMosaic Idealize.ShloMosaic.ValueIdx

variable {α : Type}

/-- The row a start index selects among `N`: the word read signed, negative values to `0`, clamped to `N − 1`. -/
def rowOf (N : Nat) (hN : 0 < N) {E w : Nat} (idx : IVec ⟨2, ![E, 1]⟩ w) (e : Fin E) : Fin N :=
  ⟨min (idx (ix2 e (0 : Fin 1))).toInt.toNat (N - 1), by omega⟩

/-- The dimension numbers of a row gather: operand `[N, D]`, start indices `[E, 1]`, result `[E, D]`. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- The dimension numbers of an entry gather: operand `[N]`, start indices `[E, 1]`, result `[E]`. -/
abbrev entriesDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- A row gather at `(e, d)` is the operand at `(rowOf e, d)`. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (d : Fin D) :
    Host.gather (rowsDims N D E wf) x idx (ix2 e d) = x (ix2 (rowOf N hN idx e) d) := by
  -- axis 0: the clamped start index, no batch and no offset coordinate
  have h0 : (rowsDims N D E wf).start (ix2 e d) idx (0 : Fin 2) + (rowsDims N D E wf).batchCoord (ix2 e d) (0 : Fin 2)
      + (rowsDims N D E wf).offCoord (ix2 e d) (0 : Fin 2) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D E wf).startIndexMap from List.mem_singleton.mpr rfl)]
    have hsi : (rowsDims N D E wf).siIdx (ix2 e d) ⟨List.idxOf (0 : Fin 2) (rowsDims N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  -- axis 1: no start index, no batch coordinate, the result's own coordinate as the offset
  have h1 : (rowsDims N D E wf).start (ix2 e d) idx (1 : Fin 2) + (rowsDims N D E wf).batchCoord (ix2 e d) (1 : Fin 2)
      + (rowsDims N D E wf).offCoord (ix2 e d) (1 : Fin 2) = d.val := by
    have hn : (1 : Fin 2) ∉ (rowsDims N D E wf).startIndexMap :=
      show (1 : Fin 2) ∉ ([0] : List (Fin 2)) by decide
    have hk : (1 : Fin 2) ∈ (rowsDims N D E wf).sKept :=
      (GatherDims.mem_sKept _ _).mpr ⟨show (1 : Fin 2) ∉ ([0] : List (Fin 2)) by decide, List.not_mem_nil⟩
    rw [GatherDims.batchCoord_eq_zero _ _ _ List.not_mem_nil]
    unfold GatherDims.start GatherDims.offCoord
    rw [dif_neg hn, dif_pos hk]
    simp only [Nat.zero_add, Nat.add_zero]
    rfl
  unfold Host.gather
  congr 1
  funext a
  refine Fin.ext ?_
  match a with
  | ⟨0, _⟩ => exact h0
  | ⟨1, _⟩ => exact h1

/-- An entry gather at `e` is the operand at `rowOf e`. -/
theorem gather_entries_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (entriesDims N E wf) x idx (ix1 e) = x (ix1 (rowOf N hN idx e)) := by
  have h0 : (entriesDims N E wf).start (ix1 e) idx (0 : Fin 1) + (entriesDims N E wf).batchCoord (ix1 e) (0 : Fin 1)
      + (entriesDims N E wf).offCoord (ix1 e) (0 : Fin 1) = (rowOf N hN idx e).val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (entriesDims N E wf).startIndexMap from List.mem_singleton.mpr rfl)]
    have hsi : (entriesDims N E wf).siIdx (ix1 e) ⟨List.idxOf (0 : Fin 1) (entriesDims N E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  unfold Host.gather
  congr 1
  funext a
  refine Fin.ext ?_
  match a with
  | ⟨0, _⟩ => exact h0

end Cert.Lib.GatherRows
-- ==== Proof.Bridge.lean ====
/-
  The two programs compute one function of the arguments.

  Both count, per node, the edges leaving it and the edges entering it (floored at one), by the same scatter-adds of ones.
  The kernel's host side scales each edge's weight by the inverse root of its source's out-degree and multiplies the
  gathered source feature by that scale; the reference scales the feature table first, gathers the scaled row and then
  multiplies by the edge's weight. Both gathers read the same row — the source index read signed and clamped —, so per
  edge `e` and feature `d` the two messages are `f · (a · s)` and `(f · s) · a` for the same three extended reals: equal,
  multiplication on the extended reals being commutative and associative. Equal messages scattered by the same indices
  give equal aggregates. The kernel then multiplies the features by the weight's upper half and the aggregate by its lower
  half and adds; the reference multiplies the two joined side by side by the whole weight: the same 256 products, summed
  in two halves. Both scale by the inverse root of the in-degree — the kernel floors it at one once more, which changes
  nothing — and add the bias.
-/
import proofs.«149839_j79388175499439_2_alg».proof.Proof.HostSide
import proofs.«149839_j79388175499439_2_alg».proof.Proof.KernelWhole
import proofs.«149839_j79388175499439_2_alg».proof.Proof.RefAt
import proofs.«149839_j79388175499439_2_alg».proof.Proof.LibGatherRows
import proofs.«149839_j79388175499439_2_alg».proof.Proof.LibSplitSum
import Idealize.ShloMosaic.Lib.ValueLayout

noncomputable section

namespace Cert.Bridge

open Cert.KernelIdeal Idealize.ShloMosaic Idealize.ShloMosaic.ValueIdx Cert.KernelIdeal.HostSide
open Cert.Lib.GatherRows
open Cert.KernelIdeal.Facts₀

/-! ## The same terms under the two programs' names -/

section Names
variable {F : FTy → Type} [FloatOps F]

theorem degree_src_same (ix : IVec S1600000 32) : Cert.ReferenceIdeal.Read.val_main_v4 (F := F) ix = degree ix := rfl
theorem count_dst_same (ix : IVec S1600000 32) : Cert.ReferenceIdeal.Read.val_main_v26 (F := F) ix = count ix := rfl
theorem rows_same (src : IVec S1600000 32) : Cert.ReferenceIdeal.Read.val_main_v14 (F := F) src = rows src := rfl

end Names

/-! ## The gathers and the spread of a per-edge scalar, read at an entry -/

theorem rows_of_matrix (x : S100000x128.Idx → EReal) (idx : IVec S1600000x1 32) (e : Fin 1600000) (d : Fin 128) :
    Host.gather gather_S100000x128_S1600000x1_S1600000x128_1_0_n_n_0_1_1128 x idx (ix2 e d)
      = x (ix2 (rowOf 100000 (by decide) idx e) d) :=
  gather_rows_apply (N := 100000) (D := 128) (E := 1600000) (by decide)
    Cert.KernelIdeal.Facts₀.gather_S100000x128_S1600000x1_S1600000x128_1_0_n_n_0_1_1128_wf x idx e d

theorem rows_of_matrix_ref (x : S100000x128.Idx → EReal) (idx : IVec S1600000x1 32) (e : Fin 1600000) (d : Fin 128) :
    Host.gather Cert.ReferenceIdeal.gather_S100000x128_S1600000x1_S1600000x128_1_0_n_n_0_1_1128 x idx (ix2 e d)
      = x (ix2 (rowOf 100000 (by decide) idx e) d) :=
  gather_rows_apply (N := 100000) (D := 128) (E := 1600000) (by decide)
    Cert.ReferenceIdeal.Facts₀.gather_S100000x128_S1600000x1_S1600000x128_1_0_n_n_0_1_1128_wf x idx e d

theorem entries_of_vector (x : S100000.Idx → EReal) (idx : IVec S1600000x1 32) (e : Fin 1600000) :
    Host.gather gather_S100000_S1600000x1_S1600000_n_0_n_n_0_1_1 x idx (ix1 e)
      = x (ix1 (rowOf 100000 (by decide) idx e)) :=
  gather_entries_apply (N := 100000) (E := 1600000) (by decide)
    Cert.KernelIdeal.Facts₀.gather_S100000_S1600000x1_S1600000_n_0_n_n_0_1_1_wf x idx e

/-- A per-edge scalar spread over the 128 features reads, at `(e, d)`, the scalar of edge `e`. -/
theorem spread_apply (v : S1600000.Idx → EReal) (e : Fin 1600000) (d : Fin 128) :
    broadcastInDim S1600000x128 ![0, 1] bcast_S1600000x1_S1600000x128_0_1
      (broadcastInDim S1600000x1 ![0] bcast_S1600000_S1600000x1_0 v) (ix2 e d) = v (ix1 e) := by
  rw [broadcastInDim_apply _ bcast_S1600000x1_S1600000x128_0_1 _ (ix2 e d) (ix2 e (0 : Fin 1)) (fun a => by
      match a with
      | ⟨0, _⟩ => show e.val = if (1600000 : Nat) = 1 then 0 else e.val; rw [if_neg (by decide)]
      | ⟨1, _⟩ => show 0 = if (1 : Nat) = 1 then 0 else d.val; rw [if_pos rfl]),
    broadcastInDim_apply _ bcast_S1600000_S1600000x1_0 v (ix2 e (0 : Fin 1)) (ix1 e) (fun a => by
      match a with
      | ⟨0, _⟩ => show e.val = if (1600000 : Nat) = 1 then 0 else e.val; rw [if_neg (by decide)])]

/-! ## The messages -/

/-- The host's inverse root at an entry is the extended reals' inverse root of the entry. -/
theorem host_rsqrt_apply {s : Shape} (x : FVec Ideal s .f32) (i : s.Idx) : Host.rsqrt x i = Ideal.rsqrt (x i) := rfl

/-- The kernel's message of edge `e` at feature `d`: `f · (a · s)`. -/
theorem message_apply (feat : S100000x128.Idx → EReal) (affine : S1600000.Idx → EReal) (src : IVec S1600000 32)
    (e : Fin 1600000) (d : Fin 128) :
    messages (F := Ideal) feat affine src (ix2 e d)
      = feat (ix2 (rowOf 100000 (by decide) (rows src) e) d)
          * (affine (ix1 e) * Ideal.rsqrt (degree (F := Ideal) src (ix1 (rowOf 100000 (by decide) (rows src) e)))) := by
  unfold messages edgeScale
  rw [mulf_apply, extf_apply, rows_of_matrix, truncf_apply, spread_apply, mulf_apply, entries_of_vector, host_rsqrt_apply]

/-- The reference's message of edge `e` at feature `d`: `(f · s) · a`. -/
theorem message_ref_apply (feat : S100000x128.Idx → EReal) (affine : S1600000.Idx → EReal) (src : IVec S1600000 32)
    (e : Fin 1600000) (d : Fin 128) :
    Cert.ReferenceIdeal.Read.val_main_v18 (F := Ideal) feat affine src (ix2 e d)
      = feat (ix2 (rowOf 100000 (by decide) (rows src) e) d)
          * Ideal.rsqrt (degree (F := Ideal) src (ix1 (rowOf 100000 (by decide) (rows src) e))) * affine (ix1 e) := by
  have e1 : Cert.ReferenceIdeal.Read.idx_main_v16 (Cert.ReferenceIdeal.Read.idx_main_v17 (ix2 e d)) = ix1 e :=
    funext fun a => Fin.ext (by
      match a with
      | ⟨0, _⟩ => rfl)
  have e2 : ∀ r : Fin 100000, Cert.ReferenceIdeal.Read.idx_main_v6 (Cert.ReferenceIdeal.Read.idx_main_v7 (ix2 r d)) = ix1 r :=
    fun r => funext fun a => Fin.ext (by
      match a with
      | ⟨0, _⟩ => rfl)
  rw [Cert.ReferenceIdeal.Read.val_main_v18_apply, Cert.ReferenceIdeal.Read.val_main_v17_apply,
    Cert.ReferenceIdeal.Read.val_main_v16_apply, e1]
  unfold Cert.ReferenceIdeal.Read.val_main_v15
  rw [rows_of_matrix_ref, Cert.ReferenceIdeal.Read.val_main_v8_apply, Cert.ReferenceIdeal.Read.val_main_v7_apply,
    Cert.ReferenceIdeal.Read.val_main_v6_apply, Cert.ReferenceIdeal.Read.val_main_v5_apply, e2, degree_src_same, rows_same]
  simp only [Ideal.mulf_def, Ideal.hostUnary_rsqrt_def]

/-- Per edge and feature the two messages are one extended real. -/
theorem messages_eq (feat : S100000x128.Idx → EReal) (affine : S1600000.Idx → EReal) (src : IVec S1600000 32) :
    messages (F := Ideal) feat affine src = Cert.ReferenceIdeal.Read.val_main_v18 (F := Ideal) feat affine src := by
  funext j
  obtain ⟨e, d, rfl⟩ : ∃ (e : Fin 1600000) (d : Fin 128), j = ix2 e d := ⟨j 0, j 1, eq_ix2 j⟩
  rw [message_apply, message_ref_apply, mul_comm (affine (ix1 e)), mul_assoc]

section Aggregate
variable {F : FTy → Type} [FloatOps F]

/-- The reference's aggregate is the same scatter-add, of its own messages. -/
theorem aggregated_ref (feat : FVec F S100000x128 .f32) (affine : FVec F S1600000 .f32) (src dst : IVec S1600000 32) :
    Cert.ReferenceIdeal.Read.val_main_v21 (F := F) feat affine src dst
      = Host.scatterAdd scatter_S100000x128_S1600000x1_S1600000x128_1_0_0_1
          (broadcastInDim S100000x128 ![] bcast_S_S100000x128 (constant S_ .f32 0x00000000#32))
          (broadcastInDim S1600000x1 ![0] bcast_S1600000_S1600000x1_0 dst)
          (Cert.ReferenceIdeal.Read.val_main_v18 (F := F) feat affine src) := rfl

end Aggregate

/-- So the aggregates are one array. -/
theorem aggregated_eq (feat : S100000x128.Idx → EReal) (affine : S1600000.Idx → EReal) (src dst : IVec S1600000 32) :
    aggregated (F := Ideal) feat affine src dst = Cert.ReferenceIdeal.Read.val_main_v21 (F := Ideal) feat affine src dst := by
  rw [aggregated_ref]
  unfold aggregated
  rw [messages_eq]

/-! ## The kernel's small operands, read at an entry -/

theorem upper_apply (w : S256x128.Idx → EReal) (k c : Fin 128) :
    upperHalf (F := Ideal) w (ix2 k c) = w (ix2 (⟨k.val, by omega⟩ : Fin 256) c) := by
  unfold upperHalf
  rw [truncf_apply]
  exact extractStridedSlice_apply ![0, 0] w slices_S256x128_S128x128_0_0 (ix2 k c) (ix2 (⟨k.val, by omega⟩ : Fin 256) c)
    (fun a => by
      match a with
      | ⟨0, _⟩ => show k.val = 0 + k.val; omega
      | ⟨1, _⟩ => show c.val = 0 + c.val; omega)

theorem lower_apply (w : S256x128.Idx → EReal) (k c : Fin 128) :
    lowerHalf (F := Ideal) w (ix2 k c) = w (ix2 (⟨128 + k.val, by omega⟩ : Fin 256) c) := by
  unfold lowerHalf
  rw [truncf_apply]
  exact extractStridedSlice_apply ![128, 0] w slices_S256x128_S128x128_128_0 (ix2 k c)
    (ix2 (⟨128 + k.val, by omega⟩ : Fin 256) c) (fun a => by
      match a with
      | ⟨0, _⟩ => show 128 + k.val = 128 + k.val; rfl
      | ⟨1, _⟩ => show c.val = 0 + c.val; omega)

theorem bias_apply (b : S128.Idx → EReal) (c : Fin 128) : biasRow (F := Ideal) b (ix2 (0 : Fin 1) c) = b (ix1 c) := by
  unfold biasRow
  exact shapeCast_a_1a_apply b shapeCasts_S128_S1x128 0 c

theorem degree_column_apply (dst : IVec S1600000 32) (n : Fin 100000) :
    degreeColumn (F := Ideal) dst (ix2 n (0 : Fin 1)) = degree (F := Ideal) dst (ix1 n) := by
  unfold degreeColumn
  exact Cert.Lib.SplitSum.shapeCast_a_a1_apply (degree (F := Ideal) dst) shapeCasts_S100000_S100000x1 n 0

/-- The splat of the constant one, read anywhere, is one. -/
theorem one_apply (n : Fin 100000) :
    broadcastInDim S100000 ![] bcast_S_S100000 (constant (F := Ideal) S_ .f32 0x3F800000#32) (ix1 n)
      = Ideal.ofBits .f32 0x3F800000#32 := rfl

/-- A degree is a count floored at one: the constant one or the count, whichever is larger. -/
theorem degree_apply (ix : IVec S1600000 32) (n : Fin 100000) :
    degree (F := Ideal) ix (ix1 n) = max (Ideal.ofBits .f32 0x3F800000#32) (count (F := Ideal) ix (ix1 n)) := by
  unfold degree
  rw [maximumf_apply, one_apply]

/-! ## The whole result -/

/-- The kernel's result array, as a function of the arguments, is the reference's. -/
theorem layer_eq (feat : S100000x128.Idx → EReal) (affine : S1600000.Idx → EReal) (w : S256x128.Idx → EReal)
    (b : S128.Idx → EReal) (src dst : IVec S1600000 32) :
    Cert.KernelIdeal.Whole.layer feat (aggregated (F := Ideal) feat affine src dst) (upperHalf (F := Ideal) w) (lowerHalf (F := Ideal) w) (biasRow (F := Ideal) b) (degreeColumn (F := Ideal) dst)
      = Cert.ReferenceIdeal.Read.val_main_v34 (F := Ideal) feat affine w b src dst := by
  funext i
  obtain ⟨n, c, rfl⟩ : ∃ (n : Fin 100000) (c : Fin 128), i = ix2 n c := ⟨i 0, i 1, eq_ix2 i⟩
  rw [Cert.ReferenceIdeal.RefValue.result_apply]
  show Cert.KernelIdeal.Whole.layerAt feat (aggregated (F := Ideal) feat affine src dst) (upperHalf (F := Ideal) w) (lowerHalf (F := Ideal) w) (biasRow (F := Ideal) b)
    (degreeColumn (F := Ideal) dst) n c = _
  unfold Cert.KernelIdeal.Whole.layerAt
  simp only [upper_apply, lower_apply, bias_apply, degree_column_apply, aggregated_eq]
  rw [degree_apply, count_dst_same, max_eq_left (le_max_left _ _)]

end Cert.Bridge

end
-- ==== Proof.lean ====
/-
  A graph-convolution layer with symmetric degree normalisation: the Pallas program against its jnp reference, on the
  extended reals.

  For node features `feat : [100000, 128]`, 1600000 weighted edges (`src`, `dst`, `affine`), a weight `[256, 128]` and a bias,
  both programs compute, at node `n` and output feature `c`,

      (∑ k, feat (n, k) · w (k, c) + ∑ k, agg (n, k) · w (128 + k, c)) · rsqrt (max 1 (in-degree n)) + bias c,

  where `agg (n, ·)` adds, over the edges `e` into `n`, the source node's feature row times `affine e` times the inverse root
  of the source's out-degree (floored at one). The reference normalises the feature table, gathers, weights, aggregates,
  joins features and aggregate side by side and multiplies by the whole weight; the Pallas program folds the
  normalisation into a per-edge scale on the host and runs the two half products, the in-degree scaling and the bias in
  one kernel over 20 row blocks. The kernel's result array is read off its generated frame run block by block
  (Proof/KernelWhole.lean over Proof/BodyAt.lean), its operands are what the host computed (Proof/HostSide.lean), the
  reference's result is its generated run read at an entry (Proof/RefAt.lean), and the two are one function of the
  arguments by commutativity and associativity of the extended reals' product and sum (Proof/Bridge.lean). No finiteness
  of the inputs is used. The idealization rewrote nothing, so its conjunct is `True`.
-/
import proofs.«149839_j79388175499439_2_alg».proof.Defs
import proofs.«149839_j79388175499439_2_alg».proof.Proof.Gen.Kernel
import proofs.«149839_j79388175499439_2_alg».proof.Proof.Gen.Kernel.Frame
import proofs.«149839_j79388175499439_2_alg».proof.Proof.Gen.KernelIdeal
import proofs.«149839_j79388175499439_2_alg».proof.Proof.Gen.KernelIdeal.Frame
import proofs.«149839_j79388175499439_2_alg».proof.Proof.Gen.KernelIdeal.Value
import proofs.«149839_j79388175499439_2_alg».proof.Proof.Gen.ReferenceIdeal
import proofs.«149839_j79388175499439_2_alg».proof.Proof.Gen.ReferenceIdeal.Run
import proofs.«149839_j79388175499439_2_alg».proof.Proof.Gen.ReferenceIdeal.Read
import proofs.«149839_j79388175499439_2_alg».proof.Proof.Gen.Pre_finite_inputs
import proofs.«149839_j79388175499439_2_alg».proof.Proof.Bridge
import Idealize.ShloMosaic.Adequacy
import Idealize.ShloMosaic.Init

noncomputable section

open Idealize.ShloMosaic Idealize.ShloMosaic.TcCoe Idealize.SL.Sem

namespace Cert.Proof.Claims

open Cert.KernelIdeal Cert.KernelIdeal.Gen Cert.KernelIdeal.HostSide

/-- The idealized kernel's run with its result array named as a function of the arguments. -/
theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v39)
        = Cert.KernelIdeal.Whole.layer (m ((c : Thread nD τ).loc main_arg0))
            (aggregated (F := Ideal) (m ((c : Thread nD τ).loc main_arg0)) (m ((c : Thread nD τ).loc main_arg1))
              (m ((c : Thread nD τ).loc main_arg4)) (m ((c : Thread nD τ).loc main_arg5)))
            (upperHalf (F := Ideal) (m ((c : Thread nD τ).loc main_arg2))) (lowerHalf (F := Ideal) (m ((c : Thread nD τ).loc main_arg2)))
            (biasRow (F := Ideal) (m ((c : Thread nD τ).loc main_arg3))) (degreeColumn (F := Ideal) (m ((c : Thread nD τ).loc main_arg5)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (by
      rw [Cert.KernelIdeal.Whole.result_array, V_main_arg0, found_messages, found_upper, found_lower, found_bias,
        found_degree]), (h c).2⟩)
    (Cert.KernelIdeal.Value.run_blocks m ρ)

theorem frame_k : Cert.frame_Kernel := fun m ρ _ => Cert.Kernel.Gen.frame m ρ

theorem frame_ki : Cert.frame_KernelIdeal := fun m ρ _ => Cert.KernelIdeal.Gen.frame m ρ

/-- The reference's frame is its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at one function of arguments that agree. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2.1, (hagree c).2.2.2.1,
    (hagree c).2.2.2.2.1, (hagree c).2.2.2.2.2]
  exact (Cert.Bridge.layer_eq _ _ _ _ _ _).symm

end Cert.Proof.Claims

namespace Cert.Proof

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
